-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S128x4096 : Shape := ⟨2, ![128, 4096]⟩
abbrev S4096x128 : Shape := ⟨2, ![4096, 128]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S128x4096 : S_.BroadcastsInDim S128x4096 (![] : Fin 0 → Fin S128x4096.rank)
  reducesTo_S128x4096_S_d0_1 : S128x4096.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  main_v18

def fn {F : FTy → Type} [FloatOps F] (main_arg0 : FVec F S8192x4096 .f32) (main_arg1 : FVec F S128x4096 .f32) (main_arg2 : FVec F S4096x128 .f32) (main_arg3 : FVec F S4096x128 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_v13 main_v16
-- ==== Kernel.lean ====
abbrev S8192x4096 : Shape := ⟨2, ![8192, 4096]⟩
abbrev S128x4096 : Shape := ⟨2, ![128, 4096]⟩
abbrev S4096x128 : Shape := ⟨2, ![4096, 128]⟩
abbrev S256x1024 : Shape := ⟨2, ![256, 1024]⟩
abbrev S1024x128 : Shape := ⟨2, ![1024, 128]⟩
abbrev S256x4096 : Shape := ⟨2, ![256, 4096]⟩
abbrev S256x128 : Shape := ⟨2, ![256, 128]⟩

abbrev nBuf : Space → Nat
  | .hbm => 9
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S128x4096, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S128x4096, .f32⟩
  | .hbm, ⟨8, _⟩ => ⟨S8192x4096, .f32⟩
  | .local _ .vmem, ⟨0, _⟩ => ⟨S256x1024, .f32⟩
  | .local _ .vmem, ⟨1, _⟩ => ⟨S256x1024, .f32⟩
  | .local _ .vmem, ⟨2, _⟩ => ⟨S1024x128, .f32⟩
  | .local _ .vmem, ⟨3, _⟩ => ⟨S1024x128, .f32⟩
  | .local _ .vmem, ⟨4, _⟩ => ⟨S128x4096, .f32⟩
  | .local _ .vmem, ⟨5, _⟩ => ⟨S256x4096, .f32⟩
  | .local _ .vmem, ⟨6, _⟩ => ⟨S256x4096, .f32⟩
  | .local _ .vmem, ⟨7, _⟩ => ⟨S256x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S128x4096_S4096x128_1_0 : S128x4096.Transposes [1, 0] S4096x128
  transposes_S4096x128_S128x4096_1_0 : S4096x128.Transposes [1, 0] S128x4096
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S256x4096_S256x4096_0_0 : ∀ a, (![0, 0] : Fin 2 → Nat) a + S256x4096.size a ≤ S256x4096.size a
  h_S256x4096 : 0 < S256x4096.numel
  dot_S256x1024_S1024x128_S256x128_1_0_0_1_n_n_wf : DotDims.WF S256x1024 S1024x128 S256x128 [1] [0] [0] [1] [] []
  dot_S256x128_S128x4096_S256x4096_1_0_0_1_n_n_wf : DotDims.WF S256x128 S128x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x4096.size a
  hwx0_0 : ∀ i : grid0.Coords, EltTy.bits .f32 = 32 ∨ (Rect.block (s := S8192x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x4096.size a
  hwx0_2 : ∀ i : grid0.Coords, EltTy.bits .f32 = 32 ∨ (Rect.block (s := S128x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S128x4096 : Shape := ⟨2, ![128, 4096]⟩
abbrev S4096x128 : Shape := ⟨2, ![4096, 128]⟩
abbrev S8192x128 : Shape := ⟨2, ![8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S128x4096, .f32⟩
  | .hbm, ⟨2, _⟩ => ⟨S4096x128, .f32⟩
  | .hbm, ⟨3, _⟩ => ⟨S4096x128, .f32⟩
  | .hbm, ⟨4, _⟩ => ⟨S8192x128, .f32⟩
  | .hbm, ⟨5, _⟩ => ⟨S4096x128, .f32⟩
  | .hbm, ⟨6, _⟩ => ⟨S4096x128, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  dot_S8192x4096_S128x4096_S8192x128_1_1_0_0_n_n_wf : DotDims.WF S8192x4096 S128x4096 S8192x128 [1] [1] [0] [0] [] []
  dot_S8192x128_S4096x128_S8192x4096_1_1_0_0_n_n_wf : DotDims.WF S8192x128 S4096x128 S8192x4096 [1] [1] [0] [0] [] []

variable [Facts₀]

def dot_S8192x4096_S128x4096_S8192x128_1_1_0_0_n_n : DotDims S8192x4096 S128x4096 S8192x128 where
  lhsContracting := [1]
  rhsContracting := [1]
  lhsNonContracting := [0]
  rhsNonContracting := [0]
  lhsBatch := []
  rhsBatch := []
  wf := dot_S8192x4096_S128x4096_S8192x128_1_1_0_0_n_n_wf
def dot_S8192x128_S4096x128_S8192x4096_1_1_0_0_n_n : DotDims S8192x128 S4096x128 S8192x4096 where
  lhsContracting := [1]
  rhsContracting := [1]
  lhsNonContracting := [0]
  rhsNonContracting := [0]
  lhsBatch := []
  rhsBatch := []
  wf := dot_S8192x128_S4096x128_S8192x4096_1_1_0_0_n_n_wf

class Facts : Prop extends Facts₀ where

variable [Facts]
-- ==== Proof.Spec.lean ====
/-
  The function both programs compute, on the extended reals.

  From x (8192 x 4096), basis (128 x 4096), phase and amp (4096 x 128 each) the result at (b, o) is

      sum over h < 128 of  ( sum over n < 4096 of x(b, n) · basis(h, n) )  ·  ( amp(o, h) · cos(phase(o, h)) ).

  The inner sum is the projection of row b of x onto basis vector h; the second factor is the weight of output o on
  that basis vector.
-/
import Idealize.ShloMosaic.PureOps.Ideal
import Idealize.ShloMosaic.Lib.ValueIdx

noncomputable section

open scoped BigOperators

namespace Cert.Resonance

open Idealize.ShloMosaic Idealize.ShloMosaic.ValueIdx

/-- One term of the projection of row `b` of `x` onto basis vector `h`. -/
def term (x : FVec Ideal ⟨2, ![8192, 4096]⟩ .f32) (basis : FVec Ideal ⟨2, ![128, 4096]⟩ .f32)
    (b : Fin 8192) (h : Fin 128) (n : Fin 4096) : EReal :=
  x (ix2 b n) * basis (ix2 h n)

/-- The weight of output `o` on basis vector `h`. -/
def weight (phase amp : FVec Ideal ⟨2, ![4096, 128]⟩ .f32) (o : Fin 4096) (h : Fin 128) : EReal :=
  amp (ix2 o h) * Ideal.cos (phase (ix2 o h))

/-- The result array. -/
def G (x : FVec Ideal ⟨2, ![8192, 4096]⟩ .f32) (basis : FVec Ideal ⟨2, ![128, 4096]⟩ .f32)
    (phase amp : FVec Ideal ⟨2, ![4096, 128]⟩ .f32) : FVec Ideal ⟨2, ![8192, 4096]⟩ .f32 :=
  fun i => ∑ h : Fin 128, (∑ n : Fin 4096, term x basis (i 0) h n) * weight phase amp (i 1) h

end Cert.Resonance

end
-- ==== Proof.Reference.lean ====
/-
  The reference computes the specification.

  Its four host operations are: the projection of every row of x onto every basis vector (a contraction over the 4096
  columns of both), the cosine of the phases, their product with the amplitudes, and the contraction of the projections
  with those weights over the 128 basis vectors. Read at an index, one operation at a time, that is the specification's
  double sum term for term.
-/
import proofs.«132732_j19301583029007_1_alg».proof.Proof.Gen.ReferenceIdeal.Read
import proofs.«132732_j19301583029007_1_alg».proof.Proof.Spec

noncomputable section

open scoped BigOperators

namespace Cert.ReferenceIdeal.IsSpec

open Cert.ReferenceIdeal Cert.ReferenceIdeal.Read Idealize.ShloMosaic Idealize.ShloMosaic.ValueIdx

/-- The reference's result, as a function of its four arguments, is the specification. -/
theorem result_eq (x0 : (⟨S8192x4096, .f32⟩ : BufTy).Contents (Elt Ideal)) (x1 : (⟨S128x4096, .f32⟩ : BufTy).Contents (Elt Ideal))
    (x2 x3 : (⟨S4096x128, .f32⟩ : BufTy).Contents (Elt Ideal)) :
    val_main_v3 (F := Ideal) x0 x1 x2 x3 = Cert.Resonance.G x0 x1 x2 x3 := by
  funext i
  rw [val_main_v3_apply]
  unfold Cert.Resonance.G
  refine Finset.sum_congr rfl fun h _ => ?_
  rw [val_main_v0_apply, val_main_v2_apply, val_main_v1_apply]
  have el : ∀ k : Fin 4096, lidx_main_v0 (lidx_main_v3 i h) k = ix2 (i 0) k := fun k => funext fun a => by
    match a with
    | ⟨0, _⟩ => rfl
    | ⟨1, _⟩ => rfl
  have er : ∀ k : Fin 4096, ridx_main_v0 (lidx_main_v3 i h) k = ix2 h k := fun k => funext fun a => by
    match a with
    | ⟨0, _⟩ => rfl
    | ⟨1, _⟩ => rfl
  have ew : ridx_main_v3 i h = ix2 (i 1) h := funext fun a => by
    match a with
    | ⟨0, _⟩ => rfl
    | ⟨1, _⟩ => rfl
  simp only [el, er, ew]
  rfl

end Cert.ReferenceIdeal.IsSpec

end
-- ==== Proof.StepValues.lean ====
/-
  What one grid step of the fused two-product kernel leaves behind, as values.

  The kernel walks a 32 x 4 grid. At the step (r, k) it holds a 256 x 1024 block of the left factor, a 1024 x 128 block
  of the first right factor and the whole 128 x 4096 second right factor, and it carries a 256 x 128 accumulator from
  step to step. Every step adds the product of its two blocks to the accumulator; at k = 0 the accumulator is first
  set to zero, and at k = 3 the product of the finished accumulator with the second right factor is stored as the
  output block. This module reads those three behaviours off the stores the body was found to make: the accumulator
  after a step is the step's payload of the two blocks and the accumulator before it (the zero block at k = 0), and the
  output block of a last step is the second payload of the accumulator just finished.
-/
import proofs.«132732_j19301583029007_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Fused

open Cert.KernelIdeal Cert.KernelIdeal.Gen

variable {F : FTy → Type} [FloatOps F]

theorem hz : (![0, 0] : Fin 2 → Nat) = fun _ => 0 := funext fun a => by fin_cases a <;> rfl

/-- A first step (k = 0) leaves in the accumulator the product of its blocks added to the zero block. -/
theorem acc_first (c : Dev nD) (i : grid0.Coords) (arg2 : Memref sig .tc .vmem S256x1024 .f32) (harg2 : arg2.IsWhole) (arg3 : Memref sig .tc .vmem S1024x128 .f32) (harg3 : arg3.IsWhole) (arg4 : Memref sig .tc .vmem S128x4096 .f32) (harg4 : arg4.IsWhole) (arg5 : Memref sig .tc .vmem S256x4096 .f32) (harg5 : arg5.IsWhole) (arg6 : Memref sig .tc .vmem S256x128 .f32) (harg6 : arg6.IsWhole) (hc0 : cond0_0 i) (hc1 : ¬cond0_1 i)
    (x0 : Vec F S256x1024 .f32) (x1 : Vec F S1024x128 .f32) (x2 : Vec F S128x4096 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x128) hz, View.readCov_unit_zero (S := S256x128) _ hz]
  simp only [View.readAt_eq_ld, harg2.read_unread, harg3.read_unread, View.ld_unit_zero (S := S256x1024) hz,
    View.ld_unit_zero (S := S1024x128) hz]

/-- A middle step (k = 1, 2) leaves in the accumulator the product of its blocks added to what the accumulator held. -/
theorem acc_middle (c : Dev nD) (i : grid0.Coords) (arg2 : Memref sig .tc .vmem S256x1024 .f32) (harg2 : arg2.IsWhole) (arg3 : Memref sig .tc .vmem S1024x128 .f32) (harg3 : arg3.IsWhole) (arg4 : Memref sig .tc .vmem S128x4096 .f32) (harg4 : arg4.IsWhole) (arg5 : Memref sig .tc .vmem S256x4096 .f32) (harg5 : arg5.IsWhole) (arg6 : Memref sig .tc .vmem S256x128 .f32) (harg6 : arg6.IsWhole) (hc0 : ¬cond0_0 i) (hc1 : ¬cond0_1 i)
    (x0 : Vec F S256x1024 .f32) (x1 : Vec F S1024x128 .f32) (x2 : Vec F S128x4096 .f32) (xs0 : Vec F S256x128 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S256x128) hz]
  simp only [View.readAt_eq_ld, harg2.read_unread, harg3.read_unread, harg6.read_unread,
    View.ld_unit_zero (S := S256x1024) hz, View.ld_unit_zero (S := S1024x128) hz, View.ld_unit_zero (S := S256x128) hz]

/-- A last step (k = 3) leaves in the accumulator the product of its blocks added to what the accumulator held. -/
theorem acc_last (c : Dev nD) (i : grid0.Coords) (arg2 : Memref sig .tc .vmem S256x1024 .f32) (harg2 : arg2.IsWhole) (arg3 : Memref sig .tc .vmem S1024x128 .f32) (harg3 : arg3.IsWhole) (arg4 : Memref sig .tc .vmem S128x4096 .f32) (harg4 : arg4.IsWhole) (arg5 : Memref sig .tc .vmem S256x4096 .f32) (harg5 : arg5.IsWhole) (arg6 : Memref sig .tc .vmem S256x128 .f32) (harg6 : arg6.IsWhole) (hc0 : ¬cond0_0 i) (hc1 : cond0_1 i)
    (x0 : Vec F S256x1024 .f32) (x1 : Vec F S1024x128 .f32) (x2 : Vec F S128x4096 .f32) (xs0 : Vec F S256x128 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S256x128) hz]
  simp only [View.readAt_eq_ld, harg2.read_unread, harg3.read_unread, harg6.read_unread,
    View.ld_unit_zero (S := S256x1024) hz, View.ld_unit_zero (S := S1024x128) hz, View.ld_unit_zero (S := S256x128) hz]

/-- A last step (k = 3) stores as the output block the product of the accumulator it has just finished with the
    second right factor. -/
theorem out_last (c : Dev nD) (i : grid0.Coords) (arg2 : Memref sig .tc .vmem S256x1024 .f32) (harg2 : arg2.IsWhole) (arg3 : Memref sig .tc .vmem S1024x128 .f32) (harg3 : arg3.IsWhole) (arg4 : Memref sig .tc .vmem S128x4096 .f32) (harg4 : arg4.IsWhole) (arg5 : Memref sig .tc .vmem S256x4096 .f32) (harg5 : arg5.IsWhole) (arg6 : Memref sig .tc .vmem S256x128 .f32) (harg6 : arg6.IsWhole) (hc0 : ¬cond0_0 i) (hc1 : cond0_1 i)
    (x0 : Vec F S256x1024 .f32) (x1 : Vec F S1024x128 .f32) (x2 : Vec F S128x4096 .f32) (xs0 : Vec F S256x128 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S256x4096) hz, View.readCov_unit_zero (S := S256x128) _ hz]
  simp only [View.readAt_eq_ld, harg2.read_unread, harg3.read_unread, harg4.read_unread, harg6.read_unread,
    View.ld_unit_zero (S := S256x1024) hz, View.ld_unit_zero (S := S1024x128) hz, View.ld_unit_zero (S := S256x128) hz,
    View.ld_unit_zero (S := S128x4096) hz]

end Cert.KernelIdeal.Fused

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.LibDotStd.lean ====
/-
  The index maps of a plain matrix product's dimension numbers.

  For dimension numbers with no batch axes, one free axis on each side and one contracted axis on each side — the shape
  of every row-times-column product — the left operand's free coordinate is the result's first coordinate and the
  right operand's free coordinate is the result's second, whatever the contraction position is. Together with the
  library's facts for the contracted coordinate these are the four index facts a sum-of-products reading needs.
-/
import Idealize.ShloMosaic.PureOps.Dims

namespace Cert.Lib.DotStd

open Idealize.ShloMosaic

variable {sl sr so : Shape} (d : DotDims sl sr so)

/-- With no batch axis and `a` the one free axis of the left operand, the left index on `a` is the result's first
    coordinate. -/
theorem lhsIdx_free (a : Fin sl.rank) (hb : d.lhsBatch = []) (hn : d.lhsNonContracting = [a]) (h0 : 0 < so.rank)
    (j : so.Idx) (c : d.contr.Idx) : (d.lhsIdx j c a).val = (j ⟨0, h0⟩).val := by
  unfold DotDims.lhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free axis on the left and `a` the one free axis of the right operand, the right index on
    `a` is the result's second coordinate. -/
theorem rhsIdx_free (a : Fin sr.rank) (hb : d.rhsBatch = []) (hlb : d.lhsBatch = []) (al : Fin sl.rank)
    (hln : d.lhsNonContracting = [al]) (hn : d.rhsNonContracting = [a]) (h1 : 1 < so.rank)
    (j : so.Idx) (c : d.contr.Idx) : (d.rhsIdx j c a).val = (j ⟨1, h1⟩).val := by
  unfold DotDims.rhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Cert.Lib.DotStd
-- ==== Proof.LibStdMatmul.lean ====
/-
  A matrix product into a zero accumulator whose dimension numbers are the standard ones — no batch axis, the left
  operand's columns contracted against the right operand's rows, the left operand's rows and the right operand's
  columns free — read at an index.

  For an n-by-K array times a K-by-M array with those dimension numbers, the entry at (p, q) of the product added to
  a zero array is the sum over k of left(p, k) · right(k, q). The record's six lists are taken as hypotheses; a printed
  record proves each by unfolding.
-/
import proofs.«132732_j19301583029007_1_alg».proof.Proof.LibMatmul
import proofs.«132732_j19301583029007_1_alg».proof.Proof.LibDotStd

noncomputable section

open scoped BigOperators

namespace Cert.Lib.StdMatmul

open Idealize.ShloMosaic Idealize.ShloMosaic.ValueIdx

/-- The kernel's matrix product into the zero splat, standard dimension numbers, at the ideal values, read at (p, q). -/
theorem matmul_std_ix2 {n K M : ℕ} {φ₁ φ₂ : FTy}
    (d : DotDims (⟨2, ![n, K]⟩ : Shape) (⟨2, ![K, M]⟩ : Shape) (⟨2, ![n, M]⟩ : Shape)) (prec : Option ContractPrecision)
    (hlc : d.lhsContracting = [1]) (hrc : d.rhsContracting = [0]) (hln : d.lhsNonContracting = [0]) (hrn : d.rhsNonContracting = [1])
    (hlb : d.lhsBatch = []) (hrb : d.rhsBatch = [])
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  have hr : d.contr.rank = 1 := by rw [d.rank_contr, hlc]; rfl
  have hs : d.contr.size ⟨0, by omega⟩ = K := by
    unfold DotDims.contr
    simp [hlc, Shape.ofList]
  refine Cert.Lib.Matmul.matmul_zero_ix2 d prec hr hs ?_ ?_ ?_ ?_ lhs rhs p q
  · intro j c; exact Cert.Lib.DotStd.lhsIdx_free d 0 hlb hln Nat.zero_lt_two j c
  · intro j c; exact d.lhsIdx_val_of_single hlc j c
  · intro j c; exact d.rhsIdx_val_of_single hrc j c
  · intro j c; exact Cert.Lib.DotStd.rhsIdx_free d 1 hrb hlb 0 hln hrn Nat.one_lt_two j c

end Cert.Lib.StdMatmul

end
-- ==== Proof.Payloads.lean ====
/-
  The body's three payloads of the fused two-product kernel, read at an index on the extended reals.

  There a change of float format is the identity and a matrix product into a zero accumulator is the plain sum of
  products over the contracted axis. So the block the kernel stores at the start of a row block's run is the zero
  block; the accumulator step adds, at (p, h), the sum over the 1024 columns j of the left block of
  left(p, j) · right(j, h) to what the accumulator held at (p, h); and the output block is, at (p, o), the sum over
  the 128 columns h of the accumulator of acc(p, h) · second(h, o).
-/
import proofs.«132732_j19301583029007_1_alg».proof.Proof.Gen.KernelIdeal.Skeleton
import proofs.«132732_j19301583029007_1_alg».proof.Proof.LibStdMatmul
import Idealize.ShloMosaic.Lib.Pipeline.Value
import Idealize.ShloMosaic.Lib.ValueIdx
import Idealize.ShloMosaic.PureOps.Ideal.Laws

noncomputable section

open scoped BigOperators

namespace Cert.KernelIdeal.Fused

open Cert.KernelIdeal Cert.KernelIdeal.Gen Idealize.ShloMosaic Idealize.ShloMosaic.ValueIdx

/-- The block stored when a row block's run starts is zero everywhere. -/
theorem zero_block_apply (j : S256x128.Idx) : k0_pay1 (F := Ideal) j = 0 := by
  unfold k0_pay1
  simp only [shapeCast_self]
  exact Ideal.ofBits_zero_f32

/-- The accumulator step at (p, h): what the accumulator held there plus the sum over the left block's columns. -/
theorem step_apply (x0 : Vec Ideal S256x1024 .f32) (x1 : Vec Ideal S1024x128 .f32) (acc : Vec Ideal S256x128 .f32)
    (p : Fin 256) (h : Fin 128) :
    k0_pay2 (F := Ideal) x0 x1 acc (ix2 p h) = acc (ix2 p h) + ∑ j : Fin 1024, x0 (ix2 p j) * x1 (ix2 j h) := by
  unfold k0_pay2
  simp only [shapeCast_self]
  refine congrArg (acc (ix2 p h) + ·) ?_
  exact Cert.Lib.StdMatmul.matmul_std_ix2 dot_S256x1024_S1024x128_S256x128_1_0_0_1_n_n none rfl rfl rfl rfl rfl rfl
    (truncf .bf16 x0 bitsLt_bf16_f32) (truncf .bf16 x1 bitsLt_bf16_f32) p h

/-- The output block at (p, o): the sum over the accumulator's columns. -/
theorem out_apply (a : Vec Ideal S256x128 .f32) (w : Vec Ideal S128x4096 .f32) (p : Fin 256) (o : Fin 4096) :
    k0_pay3 (F := Ideal) a w (ix2 p o) = ∑ h : Fin 128, a (ix2 p h) * w (ix2 h o) := by
  unfold k0_pay3
  simp only [shapeCast_self]
  exact Cert.Lib.StdMatmul.matmul_std_ix2 dot_S256x128_S128x4096_S256x4096_1_0_0_1_n_n none rfl rfl rfl rfl rfl rfl
    (truncf .bf16 a bitsLt_bf16_f32) (truncf .bf16 w bitsLt_bf16_f32) p o

end Cert.KernelIdeal.Fused

end
-- ==== Proof.Blocks.lean ====
/-
  What the fused two-product kernel's windows hold at a grid point, in terms of the arrays the region finds.

  The 128 grid points are numbered t = 4 r + k with r the row block (32 of them) and k the contraction block (4 of
  them). At point t the left factor's window holds rows 256 r … 256 r + 255 and columns 1024 k … 1024 k + 1023 of the
  left factor; the first right factor's window holds rows 1024 k … 1024 k + 1023 of the transposed basis; the second
  right factor's window holds all of the transposed weight; the output window is rows 256 r … 256 r + 255 of the
  result. The two right factors are prepared by the host before the region: the transposed basis is the basis with its
  axes swapped, and the transposed weight is amp · cos(phase), elementwise, with its axes swapped.
-/
import proofs.«132732_j19301583029007_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.StableHlo

namespace Cert.KernelIdeal.Fused

open Cert.KernelIdeal Cert.KernelIdeal.Gen Idealize.ShloMosaic.ValueIdx

variable {F : FTy → Type} [FloatOps F]
variable (m : (ℓ : Loc nD τ sig) → Buf (Elt F) ℓ)

/-! ## Where each window's block sits at the point numbered `t` -/

theorem left_index : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)

theorem basis_index : ∀ t : Fin cfg0.N, win0_1.index t 0 = t.val % 4 ∧ win0_1.index t 1 = 0 :=
  (by decide +kernel : ∀ t : Fin grid0.N, win0_1.index t 0 = t.val % 4 ∧ win0_1.index t 1 = 0)

theorem weight_index : ∀ t : Fin cfg0.N, win0_2.index t 0 = 0 ∧ win0_2.index t 1 = 0 :=
  (by decide +kernel : ∀ t : Fin grid0.N, win0_2.index t 0 = 0 ∧ win0_2.index t 1 = 0)

theorem out_index : ∀ t : Fin cfg0.N, win0_3.index t 0 = t.val / 4 ∧ win0_3.index t 1 = 0 :=
  (by decide +kernel : ∀ t : Fin grid0.N, win0_3.index t 0 = t.val / 4 ∧ win0_3.index t 1 = 0)

/-! ## The input blocks read at an index -/

/-- The left factor's block at point `t`, at (p, j): the left factor at row 256 (t / 4) + p, column 1024 (t % 4) + j. -/
theorem left_block_apply (c : Dev nD) (t : Fin cfg0.N) (p : Fin 256) (j : Fin 1024)
    (hp : 256 * (t.val / 4) + p.val < 8192) (hj : 1024 * (t.val % 4) + j.val < 4096) :
    (iblk m c 0 t : Vec F S256x1024 .f32) (ix2 p j)
      = V m c main_arg0 (ix2 ⟨256 * (t.val / 4) + p.val, hp⟩ ⟨1024 * (t.val % 4) + j.val, hj⟩) := by
  unfold iblk
  rw [View.read_apply]
  show V m c main_arg0 _ = V m c main_arg0 _
  congr 1
  funext a
  apply Fin.ext
  match a with
  | ⟨0, _⟩ => show win0_0.index t 0 * 256 + 1 * p.val = 256 * (t.val / 4) + p.val; rw [(left_index t).1]; omega
  | ⟨1, _⟩ => show win0_0.index t 1 * 1024 + 1 * j.val = 1024 * (t.val % 4) + j.val; rw [(left_index t).2]; omega

/-- The first right factor's block at point `t`, at (j, h): the transposed basis at row 1024 (t % 4) + j, column h. -/
theorem basis_block_apply (c : Dev nD) (t : Fin cfg0.N) (j : Fin 1024) (h : Fin 128)
    (hj : 1024 * (t.val % 4) + j.val < 4096) :
    (iblk m c 1 t : Vec F S1024x128 .f32) (ix2 j h) = V m c main_v0 (ix2 ⟨1024 * (t.val % 4) + j.val, hj⟩ h) := by
  unfold iblk
  rw [View.read_apply]
  show V m c main_v0 _ = V m c main_v0 _
  congr 1
  funext a
  apply Fin.ext
  match a with
  | ⟨0, _⟩ => show win0_1.index t 0 * 1024 + 1 * j.val = 1024 * (t.val % 4) + j.val; rw [(basis_index t).1]; omega
  | ⟨1, _⟩ => show win0_1.index t 1 * 128 + 1 * h.val = h.val; rw [(basis_index t).2]; omega

/-- The second right factor's block at any point is the whole transposed weight. -/
theorem weight_block_apply (c : Dev nD) (t : Fin cfg0.N) (h : Fin 128) (o : Fin 4096) :
    (iblk m c 2 t : Vec F S128x4096 .f32) (ix2 h o) = V m c main_v3 (ix2 h o) := by
  unfold iblk
  rw [View.read_apply]
  show V m c main_v3 _ = V m c main_v3 _
  congr 1
  funext a
  apply Fin.ext
  match a with
  | ⟨0, _⟩ => show win0_2.index t 0 * 128 + 1 * h.val = h.val; rw [(weight_index t).1]; omega
  | ⟨1, _⟩ => show win0_2.index t 1 * 4096 + 1 * o.val = o.val; rw [(weight_index t).2]; omega

/-! ## The two arrays the host prepares -/

/-- The first right factor as the region finds it: the basis with its axes swapped. -/
theorem basisT_eq (c : Dev nD) :
    (V m c main_v0 : S4096x128.Idx → Elt F .f32)
      = transpose S4096x128 [1, 0] (m ((c : Thread nD τ).loc main_arg1)) transposes_S128x4096_S4096x128_1_0 := by
  dsimp only [Gen.V, Gen.hostOps0]; after_results

/-- The second right factor as the region finds it: amp · cos(phase) with its axes swapped. -/
theorem weightT_eq (c : Dev nD) :
    (V m c main_v3 : S128x4096.Idx → Elt F .f32)
      = transpose S128x4096 [1, 0] (mulf (m ((c : Thread nD τ).loc main_arg3)) (Host.cos (m ((c : Thread nD τ).loc main_arg2))))
          transposes_S4096x128_S128x4096_1_0 := by
  dsimp only [Gen.V, Gen.hostOps0]; after_results

/-- The transposed basis at (n, h) is the basis at (h, n). -/
theorem basisT_apply (c : Dev nD) (n : Fin 4096) (h : Fin 128) :
    V m c main_v0 (ix2 n h) = m ((c : Thread nD τ).loc main_arg1) (ix2 h n) := by
  rw [basisT_eq]
  exact transpose_ix2_apply _ _ n h

/-- The transposed weight at (h, o) is amp(o, h) · cos(phase(o, h)). -/
theorem weightT_apply (c : Dev nD) (h : Fin 128) (o : Fin 4096) :
    V m c main_v3 (ix2 h o)
      = FloatOps.mulf (m ((c : Thread nD τ).loc main_arg3) (ix2 o h)) (FloatOps.hostUnary .cos (m ((c : Thread nD τ).loc main_arg2) (ix2 o h))) := by
  rw [weightT_eq]
  exact transpose_ix2_apply _ _ h o

end Cert.KernelIdeal.Fused

end
-- ==== Proof.LibBlockSum.lean ====
/-
  A finite sum taken in consecutive blocks.

  A sum over the first n naturals can be built up block by block: the sum of the first a terms plus the sum of the next
  b terms is the sum of the first a + b terms. For a family g indexed by the numbers below n, extended by zero to all
  naturals, this gives the step used when a long contraction is accumulated in consecutive blocks of a fixed length: the
  partial sum over the first a indices, plus a block of b terms that are the family's terms at a, a + 1, …, a + b - 1,
  is the partial sum over the first a + b indices; and the partial sum over all n indices is the sum of the family.
  Only commutativity and associativity of the addition are used, so the statements hold in any commutative additive
  monoid — the extended reals with their infinities included.
-/
import Mathlib.Algebra.BigOperators.Fin
import Mathlib.Data.Fintype.BigOperators

open scoped BigOperators

namespace Cert.Lib.BlockSum

variable {M : Type*} [AddCommMonoid M]

/-- The sum of the first `a` terms plus the sum of the next `b` terms is the sum of the first `a + b` terms. -/
theorem prefix_add_block (f : ℕ → M) (a b : ℕ) :
    (∑ x ∈ Finset.range a, f x) + ∑ j : Fin b, f (a + j.val) = ∑ x ∈ Finset.range (a + b), f x := by
  rw [Finset.sum_range_add, Fin.sum_univ_eq_sum_range (fun x => f (a + x)) b]

/-- A family on the numbers below `n`, extended by zero to every natural. -/
def ext0 {n : ℕ} (g : Fin n → M) (x : ℕ) : M := if h : x < n then g ⟨x, h⟩ else 0

theorem ext0_of_lt {n : ℕ} (g : Fin n → M) (x : ℕ) (h : x < n) : ext0 g x = g ⟨x, h⟩ := dif_pos h

/-- The partial sum of a family over the first `a` indices. -/
def upTo {n : ℕ} (g : Fin n → M) (a : ℕ) : M := ∑ x ∈ Finset.range a, ext0 g x

theorem upTo_zero {n : ℕ} (g : Fin n → M) : upTo g 0 = 0 := Finset.sum_range_zero _

/-- ONE BLOCK MORE: the partial sum over the first `a` indices plus `b` terms that are the family's terms at
    `a, …, a + b - 1` is the partial sum over the first `a + b` indices. -/
theorem upTo_add_block {n : ℕ} (g : Fin n → M) (a b : ℕ) (hab : a + b ≤ n) (blk : Fin b → M)
    (hblk : ∀ j : Fin b, blk j = g ⟨a + j.val, Nat.lt_of_lt_of_le (Nat.add_lt_add_left j.isLt a) hab⟩) :
    upTo g a + ∑ j : Fin b, blk j = upTo g (a + b) := by
  unfold upTo
  rw [← prefix_add_block]
  congr 1
  refine Finset.sum_congr rfl fun j _ => ?_
  rw [hblk j, ext0_of_lt]

/-- The partial sum over all the indices is the family's sum. -/
theorem upTo_all {n : ℕ} (g : Fin n → M) : upTo g n = ∑ k : Fin n, g k := by
  unfold upTo
  rw [Finset.sum_range]
  exact Finset.sum_congr rfl fun k _ => ext0_of_lt g k.val k.isLt

end Cert.Lib.BlockSum
-- ==== Proof.Accumulate.lean ====
/-
  The accumulator of the fused two-product kernel after every grid step, and the output block of a last step.

  The grid points are numbered t = 4 r + k. For the row b = 256 r + p of the left factor and a basis vector h, write
  g(n) = x(b, n) · basis(h, n) for the 4096 terms of the projection of that row onto that vector. After the step
  t the accumulator holds, at (p, h), the sum of the first 1024 (k + 1) of these terms: the step k = 0 starts from the
  zero block, every step adds the 1024 terms of its own contraction block, and the blocks are consecutive. After the
  step k = 3 that is the whole projection, and the output block stored at that step is, at (p, o), the sum over h of
  projection(b, h) · weight(o, h) — the specification at (b, o). Only the order of a finite sum is changed, which is
  free on the extended reals.
-/
import proofs.«132732_j19301583029007_1_alg».proof.Proof.StepValues
import proofs.«132732_j19301583029007_1_alg».proof.Proof.Payloads
import proofs.«132732_j19301583029007_1_alg».proof.Proof.Blocks
import proofs.«132732_j19301583029007_1_alg».proof.Proof.LibBlockSum
import proofs.«132732_j19301583029007_1_alg».proof.Proof.Spec

noncomputable section

open scoped BigOperators

open Idealize.ShloMosaic Idealize.ShloMosaic.TcCoe Idealize.SL.Sem

namespace Cert.KernelIdeal.Fused

open Cert.KernelIdeal Cert.KernelIdeal.Gen Idealize.ShloMosaic.ValueIdx Cert.Lib.BlockSum

variable (m : (ℓ : Loc nD τ sig) → Buf (Elt Ideal) ℓ)

/-- The terms of the projection of row `b` of x onto basis vector `h`, in the argument arrays as launched. -/
abbrev terms (c : Dev nD) (b : Fin 8192) (h : Fin 128) : Fin 4096 → EReal :=
  Cert.Resonance.term (m ((c : Thread nD τ).loc main_arg0)) (m ((c : Thread nD τ).loc main_arg1)) b h

/-- A product of the two blocks' entries at point `t` is one of those terms: the one at column 1024 (t % 4) + j. -/
theorem block_term (c : Dev nD) (t : Fin cfg0.N) (x0 : Vec Ideal S256x1024 .f32) (x1 : Vec Ideal S1024x128 .f32)
    (hx0 : x0 = iblk m c 0 t) (hx1 : x1 = iblk m c 1 t) (p : Fin 256) (h : Fin 128) (j : Fin 1024)
    (hb : 256 * (t.val / 4) + p.val < 8192) (hj : 1024 * (t.val % 4) + j.val < 4096) :
    x0 (ix2 p j) * x1 (ix2 j h) = terms m c ⟨256 * (t.val / 4) + p.val, hb⟩ h ⟨1024 * (t.val % 4) + j.val, hj⟩ := by
  subst hx0 hx1
  rw [left_block_apply m c t p j hb hj, basis_block_apply m c t j h hj, basisT_apply, V_main_arg0]
  rfl

/-- ONE STEP: if the accumulator holds at (p, h) the sum of the first `a = 1024 (t % 4)` terms, the step at point `t`
    leaves there the sum of the first `a + 1024`. -/
theorem step_at (c : Dev nD) (t : Fin cfg0.N) (acc : Vec Ideal S256x128 .f32) (p : Fin 256) (h : Fin 128)
    (hb : 256 * (t.val / 4) + p.val < 8192) (a : ℕ) (ha : a = 1024 * (t.val % 4))
    (hacc : acc (ix2 p h) = upTo (terms m c ⟨256 * (t.val / 4) + p.val, hb⟩ h) a) :
    k0_pay2 (F := Ideal) (iblk m c 0 t) (iblk m c 1 t) acc (ix2 p h)
      = upTo (terms m c ⟨256 * (t.val / 4) + p.val, hb⟩ h) (a + 1024) := by
  subst ha
  refine (step_apply _ _ _ p h).trans ?_
  rw [hacc]
  exact upTo_add_block _ _ 1024 (by omega) _ (fun j => block_term m c t _ _ rfl rfl p h j hb (by omega))

/-- What the step before left is what this step starts from: inside a row block's run the row block does not change
    and the contraction blocks are consecutive. -/
theorem carried (c : Dev nD) (n : ℕ) (hn : n + 1 < cfg0.N) (h0 : ¬(n + 1) % 4 = 0) (p : Fin 256) (h : Fin 128)
    (hb : 256 * ((n + 1) / 4) + p.val < 8192) (hb' : 256 * (n / 4) + p.val < 8192)
    (ih : (outsAt0 m c n (Nat.lt_of_succ_lt hn)).2 (ix2 p h) = upTo (terms m c ⟨256 * (n / 4) + p.val, hb'⟩ h) (1024 * (n % 4) + 1024)) :
    (outsAt0 m c n (Nat.lt_of_succ_lt hn)).2 (ix2 p h)
      = upTo (terms m c ⟨256 * ((n + 1) / 4) + p.val, hb⟩ h) (1024 * ((n + 1) % 4)) := by
  have e : (⟨256 * ((n + 1) / 4) + p.val, hb⟩ : Fin 8192) = ⟨256 * (n / 4) + p.val, hb'⟩ :=
    Fin.ext (by show 256 * ((n + 1) / 4) + p.val = 256 * (n / 4) + p.val; omega)
  rw [e, show 1024 * ((n + 1) % 4) = 1024 * (n % 4) + 1024 by omega]
  exact ih

/-- THE ACCUMULATOR AFTER POINT `n`: at (p, h), the sum of the first 1024 (n % 4 + 1) terms of the projection of row
    256 (n / 4) + p onto basis vector h — by induction on the point. -/
theorem acc_eq (c : Dev nD) : ∀ (n : ℕ) (hn : n < cfg0.N) (p : Fin 256) (h : Fin 128) (hb : 256 * (n / 4) + p.val < 8192),
    (outsAt0 m c n hn).2 (ix2 p h) = upTo (terms m c ⟨256 * (n / 4) + p.val, hb⟩ h) (1024 * (n % 4) + 1024) := by
  intro n
  induction n with
  | zero =>
    intro hn p h hb
    rw [outsAt0_A m c ⟨0, hn⟩ rfl (by show ¬0 % 4 = 3; decide)]
    dsimp only
    rw [acc_first]
    exact step_at m c ⟨0, hn⟩ _ p h hb (1024 * (0 % 4)) rfl ((zero_block_apply _).trans (upTo_zero _).symm)
  | succ n ih =>
    intro hn p h hb
    have hN : n + 1 < 128 := lt_of_lt_of_eq hn (show cfg0.N = 128 from N_0)
    by_cases h0 : (n + 1) % 4 = 0
    · have h1 : ¬(n + 1) % 4 = 3 := by omega
      rw [outsAt0_A m c ⟨n + 1, hn⟩ h0 h1]
      dsimp only
      rw [acc_first]
      refine step_at m c ⟨n + 1, hn⟩ _ p h hb (1024 * ((n + 1) % 4)) rfl ?_
      rw [zero_block_apply, h0]
      exact (upTo_zero _).symm
    · by_cases h1 : (n + 1) % 4 = 3
      · rw [outsAt0_C m c ⟨n + 1, hn⟩ h0 h1]
        dsimp only
        rw [acc_last]
        exact step_at m c ⟨n + 1, hn⟩ _ p h hb (1024 * ((n + 1) % 4)) rfl
          (carried m c n hn h0 p h hb (by omega) (ih (Nat.lt_of_succ_lt hn) p h (by omega)))
      · rw [outsAt0_B m c ⟨n + 1, hn⟩ h0 h1]
        dsimp only
        rw [acc_middle]
        exact step_at m c ⟨n + 1, hn⟩ _ p h hb (1024 * ((n + 1) % 4)) rfl
          (carried m c n hn h0 p h hb (by omega) (ih (Nat.lt_of_succ_lt hn) p h (by omega)))

/-- THE OUTPUT BLOCK OF A LAST STEP: at (p, o) it is the specification at row 256 (t / 4) + p and column o. -/
theorem out_eq (c : Dev nD) (t : Fin cfg0.N) (h3 : t.val % 4 = 3) (p : Fin 256) (o : Fin 4096)
    (hb : 256 * (t.val / 4) + p.val < 8192) :
    (outsAt0 m c t.val t.isLt).1 (ix2 p o)
      = Cert.Resonance.G (m ((c : Thread nD τ).loc main_arg0)) (m ((c : Thread nD τ).loc main_arg1))
          (m ((c : Thread nD τ).loc main_arg2)) (m ((c : Thread nD τ).loc main_arg3))
          (ix2 ⟨256 * (t.val / 4) + p.val, hb⟩ o) := by
  have h0 : ¬t.val % 4 = 0 := by omega
  have hs : (outsAt0 m c t.val t.isLt).1 = k0_pay3 (F := Ideal) (outsAt0 m c t.val t.isLt).2 (iblk m c 2 t) := by
    rw [outsAt0_C m c t h0 h3]
    dsimp only
    rw [out_last, acc_last]
  rw [hs]
  refine (out_apply _ _ p o).trans ?_
  unfold Cert.Resonance.G
  refine Finset.sum_congr rfl fun h _ => ?_
  rw [acc_eq m c t.val t.isLt p h hb, weight_block_apply, weightT_apply,
    show 1024 * (t.val % 4) + 1024 = 4096 by omega, upTo_all]
  rfl

end Cert.KernelIdeal.Fused

end
-- ==== Proof.Result.lean ====
/-
  The result array of the fused two-product kernel after the run.

  The output window is written back at the last step of every row block's run (the points t with t % 4 = 3), and the
  block written there is rows 256 (t / 4) … 256 (t / 4) + 255 of the result. Each of those blocks is the corresponding
  block of the specification, and the 32 of them cover the array: row i lies in the block written at the point
  4 (i / 256) + 3. So the array ends holding the specification of the argument arrays.
-/
import proofs.«132732_j19301583029007_1_alg».proof.Proof.Accumulate
import proofs.«132732_j19301583029007_1_alg».proof.Proof.Gen.KernelIdeal.Value

noncomputable section

open Idealize.ShloMosaic Idealize.ShloMosaic.TcCoe Idealize.SL.Sem
open Idealize.ShloMosaic.Pipeline (Dat)

namespace Cert.KernelIdeal.Fused

open Cert.KernelIdeal Cert.KernelIdeal.Gen Idealize.ShloMosaic.ValueIdx

variable (m : (ℓ : Loc nD τ sig) → Buf (Elt Ideal) ℓ) (ρ : Dev nD → PrngReg)

/-- What the result array ends holding: the specification of the argument arrays as launched. -/
def result (c : Dev nD) : Buf (Elt Ideal) ((c : Thread nD τ).loc main_v4) :=
  Cert.Resonance.G (m ((c : Thread nD τ).loc main_arg0)) (m ((c : Thread nD τ).loc main_arg1))
    (m ((c : Thread nD τ).loc main_arg2)) (m ((c : Thread nD τ).loc main_arg3))

/-- What a last step writes back is its block of the specification. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN : t.val < 128 := lt_of_lt_of_eq t.isLt (show cfg0.N = 128 from N_0)
  rw [Cert.KernelIdeal.Value.flushed3]
  funext y
  have hy : (y 0).val < 256 := (y 0).isLt
  show (outsAt0 m c t.val t.isLt).1 y = result m c (((cfg0.win 3).blk t).view.emb y)
  refine (congrArg (outsAt0 m c t.val t.isLt).1 (eq_ix2 y)).trans ((out_eq m c t h3 (y 0) (y 1) (by omega)).trans ?_)
  unfold result
  congr 1
  funext a
  apply Fin.ext
  match a with
  | ⟨0, _⟩ => show 256 * (t.val / 4) + (y 0).val = win0_3.index t 0 * 256 + 1 * (y 0).val; rw [(out_index t).1]; omega
  | ⟨1, _⟩ => show (y 1).val = win0_3.index t 1 * 4096 + 1 * (y 1).val; rw [(out_index t).2]; omega

/-- An index of the result array is in point `t`'s block iff each coordinate is in the block's range on its axis. -/
theorem mem_out_block (t : Fin cfg0.N) (i : S8192x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v4).slice (win0_3.rect t)).set ↔ _
  rw [View.set_slice_whole, Rect.mem_set_unit]
  exact Iff.rfl

/-- Every index of the result array is in the block some last step writes back. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  have ht : 4 * ((i 0).val / 256) + 3 < cfg0.N := by rw [hN]; omega
  refine ⟨⟨4 * ((i 0).val / 256) + 3, ht⟩, (flush0_3 _).mpr (by show (4 * ((i 0).val / 256) + 3) % 4 = 3; omega), ?_⟩
  rw [mem_out_block]
  have e0 := (out_index ⟨4 * ((i 0).val / 256) + 3, ht⟩).1
  have e1 := (out_index ⟨4 * ((i 0).val / 256) + 3, ht⟩).2
  have e0' : win0_3.index ⟨4 * ((i 0).val / 256) + 3, ht⟩ 0 = (i 0).val / 256 := by
    rw [e0]; show (4 * ((i 0).val / 256) + 3) / 4 = (i 0).val / 256; omega
  intro a
  match a with
  | ⟨0, _⟩ =>
    show win0_3.index ⟨4 * ((i 0).val / 256) + 3, ht⟩ 0 * 256 ≤ (i 0).val ∧ (i 0).val < win0_3.index ⟨4 * ((i 0).val / 256) + 3, ht⟩ 0 * 256 + 256
    rw [e0']; omega
  | ⟨1, _⟩ =>
    show win0_3.index ⟨4 * ((i 0).val / 256) + 3, ht⟩ 1 * 4096 ≤ (i 1).val ∧ (i 1).val < win0_3.index ⟨4 * ((i 0).val / 256) + 3, ht⟩ 1 * 4096 + 4096
    rw [e1]; omega

/-- The result array after the run is the specification of the argument arrays. -/
theorem final (c : Dev nD) : (dats m 0 c).arrAt 3 cfg0.N = result m c :=
  (dats m 0 c).arrAt_eq_of_cover 3 (result m c) (flushed_eq m c) cover

/-- The kernel's run: every weakly fair execution terminates with the result array at the specification and the
    arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Fused

end
-- ==== Proof.lean ====
/-
  Equivalence of a fused two-product kernel with its two-contraction reference, on the extended reals.

  Both programs compute, from x (8192 x 4096), basis (128 x 4096), phase and amp (4096 x 128 each),

      out(b, o) = sum over h < 128 of ( sum over n < 4096 of x(b, n) · basis(h, n) ) · ( amp(o, h) · cos(phase(o, h)) ).

  The reference does it with two contractions on the host. The kernel transposes the basis and the weight
  amp · cos(phase) on the host, and then walks a grid of 32 row blocks by 4 contraction blocks: it accumulates the
  projection of a row block of x onto the basis vectors 1024 columns at a time, starting from zero, and after the
  fourth block multiplies the finished projections by the transposed weight. The two results differ only in the order
  in which the 4096 terms of each projection are added — four consecutive blocks against one sum — and addition on the
  extended reals is commutative and associative, infinities included; a change of float format is the identity there.
  So the claim needs nothing of the precondition beyond what the frames take.

  The modules: Spec (the function above), Reference (the reference computes it), StepValues (what a grid step leaves in
  the accumulator and in the output block, as payloads), Payloads (the payloads at an index), Blocks (what the windows
  hold at a point, and the two arrays the host prepares), LibBlockSum (a sum built up in consecutive blocks),
  Accumulate (the accumulator after every point, by induction on the point, and the output block of a last step),
  Result (the blocks written back cover the array: the kernel's run ends at the specification).
-/
import proofs.«132732_j19301583029007_1_alg».proof.Defs
import proofs.«132732_j19301583029007_1_alg».proof.Proof.Gen.Kernel
import proofs.«132732_j19301583029007_1_alg».proof.Proof.Gen.Kernel.Skeleton
import proofs.«132732_j19301583029007_1_alg».proof.Proof.Gen.Kernel.Launch
import proofs.«132732_j19301583029007_1_alg».proof.Proof.Gen.Kernel.Points
import proofs.«132732_j19301583029007_1_alg».proof.Proof.Gen.Kernel.Frame
import proofs.«132732_j19301583029007_1_alg».proof.Proof.Gen.KernelIdeal
import proofs.«132732_j19301583029007_1_alg».proof.Proof.Gen.KernelIdeal.Skeleton
import proofs.«132732_j19301583029007_1_alg».proof.Proof.Gen.KernelIdeal.Launch
import proofs.«132732_j19301583029007_1_alg».proof.Proof.Gen.KernelIdeal.Points
import proofs.«132732_j19301583029007_1_alg».proof.Proof.Gen.KernelIdeal.Frame
import proofs.«132732_j19301583029007_1_alg».proof.Proof.Gen.ReferenceIdeal
import proofs.«132732_j19301583029007_1_alg».proof.Proof.Gen.Pre_finite_inputs
import proofs.«132732_j19301583029007_1_alg».proof.Proof.Gen.KernelIdeal.Value
import proofs.«132732_j19301583029007_1_alg».proof.Proof.Gen.ReferenceIdeal.Run
import proofs.«132732_j19301583029007_1_alg».proof.Proof.Gen.ReferenceIdeal.Read
import proofs.«132732_j19301583029007_1_alg».proof.Proof.Reference
import proofs.«132732_j19301583029007_1_alg».proof.Proof.Result
import Idealize.ShloMosaic.Adequacy
import Idealize.ShloMosaic.Init

noncomputable section

namespace Cert.Proof

open Idealize.ShloMosaic Idealize.SL.Sem

/-- The word-level kernel terminates, faults nowhere and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is four host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- From memories agreeing on the four arguments the kernel's run ends with its result array at the specification of
    its arguments, and the reference's run ends with its result at the same function of the same arrays. -/
theorem algebraic : Cert.algebraic_KernelIdeal_ReferenceIdeal := by
  intro m ρ m' ρ' _ hagree
  refine ⟨fun c => Cert.KernelIdeal.Fused.result m c, Cert.KernelIdeal.Fused.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.IsSpec.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
